-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S1x16777216 : Shape := ⟨2, ![1, 16777216]⟩
abbrev S_ : Shape := ⟨0, ![]⟩
abbrev S1 : Shape := ⟨1, ![1]⟩
abbrev S1x1 : Shape := ⟨2, ![1, 1]⟩

class Facts : Prop where
  shapeCasts_S4096x4096_S1x16777216 : S4096x4096.ShapeCasts S1x16777216
  reducesTo_S1x16777216_S1_d1 : S1x16777216.ReducesTo [1] S1
  h_S_ : 0 < S_.numel
  bcast_S1_S1x1_0 : S1.BroadcastsInDim S1x1 (![0] : Fin 1 → Fin S1x1.rank)
  bcast_S_S1x1 : S_.BroadcastsInDim S1x1 (![] : Fin 0 → Fin S1x1.rank)
  bcast_S1x1_S1x16777216_0_1 : S1x1.BroadcastsInDim S1x16777216 (![0, 1] : Fin 2 → Fin S1x16777216.rank)
  bcast_S_S8192x4096 : S_.BroadcastsInDim S8192x4096 (![] : Fin 0 → Fin S8192x4096.rank)
  reducesTo_S8192x4096_S_d0_1 : S8192x4096.ReducesTo [0, 1] S_
  bcast_S_S4096x4096 : S_.BroadcastsInDim S4096x4096 (![] : Fin 0 → Fin S4096x4096.rank)
  reducesTo_S4096x4096_S_d0_1 : S4096x4096.ReducesTo [0, 1] S_
  reducesTo_S1x1_S_d0_1 : S1x1.ReducesTo [0, 1] S_

variable [Facts]

def fn_part1 {F : FTy → Type} [FloatOps F] (main_v12 : FVec F S1x1 .f32) (main_v16 : IVec S_ 1) (main_v17 : FVec F S4096x4096 .f32) : IVec S_ 1 :=
  let main_cst_4 : FVec F S_ .f32 := constant S_ .f32 0x7F800000#32
  let main_v18 : FVec F S4096x4096 .f32 := broadcastInDim S4096x4096 ![] bcast_S_S4096x4096 main_cst_4
  let main_v19 : IVec S4096x4096 1 := cmpf .olt main_v17 main_v18
  let main_c_5 : IVec S_ 1 := constantI S_ 1 1#1
  let main_v20 : IVec S_ 1 := (fun x v => Host.reduce IntOp.andi x v reducesTo_S4096x4096_S_d0_1 h_S_) main_v19 main_c_5
  let main_v21 : IVec S_ 1 := andi main_v16 main_v20
  let main_cst_6 : FVec F S_ .f32 := constant S_ .f32 0x00000000#32
  let main_v22 : FVec F S1x1 .f32 := broadcastInDim S1x1 ![] bcast_S_S1x1 main_cst_6
  let main_v23 : IVec S1x1 1 := cmpf .une main_v12 main_v22
  let main_c_7 : IVec S_ 1 := constantI S_ 1 1#1
  let main_v24 : IVec S_ 1 := (fun x v => Host.reduce IntOp.andi x v reducesTo_S1x1_S_d0_1 h_S_) main_v23 main_c_7
  let main_v25 : IVec S_ 1 := andi main_v21 main_v24
  main_v25

def fn {F : FTy → Type} [FloatOps F] (main_arg0 : FVec F S8192x4096 .f32) (main_arg1 : FVec F S4096x4096 .f32) : IVec S_ 1 :=
  let main_v0 : FVec F S1x16777216 .f32 := shapeCast S1x16777216 main_arg1 shapeCasts_S4096x4096_S1x16777216
  let main_cst : FVec F S_ .f32 := constant S_ .f32 0x00000000#32
  let main_v1 : FVec F S1 .f32 := (fun x v => Host.reduceAdd x v reducesTo_S1x16777216_S1_d1 h_S_) main_v0 main_cst
  let main_v2 : FVec F S1x1 .f32 := broadcastInDim S1x1 ![0] bcast_S1_S1x1_0 main_v1
  let main_cst_0 : FVec F S_ .f32 := constant S_ .f32 0x4B800000#32
  let main_v3 : FVec F S1x1 .f32 := broadcastInDim S1x1 ![] bcast_S_S1x1 main_cst_0
  let main_v4 : FVec F S1x1 .f32 := Host.divf main_v2 main_v3
  let main_v5 : FVec F S1x16777216 .f32 := broadcastInDim S1x16777216 ![0, 1] bcast_S1x1_S1x16777216_0_1 main_v4
  let main_v6 : FVec F S1x16777216 .f32 := subf main_v0 main_v5
  let main_v7 : FVec F S1x16777216 .f32 := Host.sign main_v6
  let main_v8 : FVec F S1x16777216 .f32 := Host.absf main_v7
  let main_cst_1 : FVec F S_ .f32 := constant S_ .f32 0x00000000#32
  let main_v9 : FVec F S1 .f32 := (fun x v => Host.reduceAdd x v reducesTo_S1x16777216_S1_d1 h_S_) main_v8 main_cst_1
  let main_v10 : FVec F S1x1 .f32 := broadcastInDim S1x1 ![0] bcast_S1_S1x1_0 main_v9
  let main_cst_2 : FVec F S_ .f32 := constant S_ .f32 0x4B800000#32
  let main_v11 : FVec F S1x1 .f32 := broadcastInDim S1x1 ![] bcast_S_S1x1 main_cst_2
  let main_v12 : FVec F S1x1 .f32 := Host.divf main_v10 main_v11
  let main_v13 : FVec F S8192x4096 .f32 := Host.absf main_arg0
  let main_cst_3 : FVec F S_ .f32 := constant S_ .f32 0x7F800000#32
  let main_v14 : FVec F S8192x4096 .f32 := broadcastInDim S8192x4096 ![] bcast_S_S8192x4096 main_cst_3
  let main_v15 : IVec S8192x4096 1 := cmpf .olt main_v13 main_v14
  let main_c : IVec S_ 1 := constantI S_ 1 1#1
  let main_v16 : IVec S_ 1 := (fun x v => Host.reduce IntOp.andi x v reducesTo_S8192x4096_S_d0_1 h_S_) main_v15 main_c
  let main_v17 : FVec F S4096x4096 .f32 := Host.absf main_arg1
  fn_part1 (F := F) main_v12 main_v16 main_v17
-- ==== Kernel.lean ====
abbrev S8192x4096 : Shape := ⟨2, ![8192, 4096]⟩
abbrev S4096x4096 : Shape := ⟨2, ![4096, 4096]⟩
abbrev S1x16777216 : Shape := ⟨2, ![1, 16777216]⟩
abbrev S_ : Shape := ⟨0, ![]⟩
abbrev S1 : Shape := ⟨1, ![1]⟩
abbrev S1x1 : Shape := ⟨2, ![1, 1]⟩
abbrev S64x4096 : Shape := ⟨2, ![64, 4096]⟩

abbrev nBuf : Space → Nat
  | .hbm => 21
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S1x16777216, .f32⟩
  | .hbm, ⟨3, _⟩ => ⟨S_, .f32⟩
  | .hbm, ⟨4, _⟩ => ⟨S1, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S1x1, .f32⟩
  | .hbm, ⟨9, _⟩ => ⟨S1x16777216, .f32⟩
  | .hbm, ⟨10, _⟩ => ⟨S1x16777216, .f32⟩
  | .hbm, ⟨11, _⟩ => ⟨S1x16777216, .f32⟩
  | .hbm, ⟨12, _⟩ => ⟨S4096x4096, .f32⟩
  | .hbm, ⟨13, _⟩ => ⟨S4096x4096, .bf16⟩
  | .hbm, ⟨14, _⟩ => ⟨S8192x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x1, .f32⟩
  | .hbm, ⟨20, _⟩ => ⟨S8192x4096, .f32⟩
  | .local _ .vmem, ⟨0, _⟩ => ⟨S64x4096, .f32⟩
  | .local _ .vmem, ⟨1, _⟩ => ⟨S64x4096, .f32⟩
  | .local _ .vmem, ⟨2, _⟩ => ⟨S4096x4096, .bf16⟩
  | .local _ .vmem, ⟨3, _⟩ => ⟨S1x1, .f32⟩
  | .local _ .vmem, ⟨4, _⟩ => ⟨S64x4096, .f32⟩
  | .local _ .vmem, ⟨5, _⟩ => ⟨S64x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x4096_S1x16777216 : S4096x4096.ShapeCasts S1x16777216
  reducesTo_S1x16777216_S1_d1 : S1x16777216.ReducesTo [1] S1
  h_S_ : 0 < S_.numel
  bcast_S1_S1x1_0 : S1.BroadcastsInDim S1x1 (![0] : Fin 1 → Fin S1x1.rank)
  bcast_S_S1x1 : S_.BroadcastsInDim S1x1 (![] : Fin 0 → Fin S1x1.rank)
  bcast_S1x1_S1x16777216_0_1 : S1x1.BroadcastsInDim S1x16777216 (![0, 1] : Fin 2 → Fin S1x16777216.rank)
  shapeCasts_S1x16777216_S4096x4096 : S1x16777216.ShapeCasts S4096x4096
  bitsLt_bf16_f32 : FTy.bits .bf16 < FTy.bits .f32
  reducesTo_S8192x4096_S_d0_1 : S8192x4096.ReducesTo [0, 1] S_
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S64x4096_S64x4096_0_0 : ∀ a, (![0, 0] : Fin 2 → Nat) a + S64x4096.size a ≤ S64x4096.size a
  h_S64x4096 : 0 < S64x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  dot_S64x4096_S4096x4096_S64x4096_1_1_0_0_n_n_wf : DotDims.WF S64x4096 S4096x4096 S64x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S8192x4096.size a
  hwx0_0 : ∀ i : grid0.Coords, EltTy.bits .f32 = 32 ∨ (Rect.block (s := S8192x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S8192x4096.size a
  hwx0_3 : ∀ i : grid0.Coords, EltTy.bits .f32 = 32 ∨ (Rect.block (s := S8192x4096) S64x4096.size (cc0_transform_3 i) (hinb0_3 i)).WholeWords (EltTy.packing .f32)

variable [Facts₀]

def dot_S64x4096_S4096x4096_S64x4096_1_1_0_0_n_n : DotDims S64x4096 S4096x4096 S64x4096 where
  lhsContracting := [1]
  rhsContracting := [1]
  lhsNonContracting := [0]
  rhsNonContracting := [0]
  lhsBatch := []
  rhsBatch := []
  wf := dot_S64x4096_S4096x4096_S64x4096_1_1_0_0_n_n_wf

abbrev win0_0 : Pipeline.Window sig grid0 :=
  Pipeline.Window.ofSpec (Memref.whole main_arg0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S64x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S1x16777216 : Shape := ⟨2, ![1, 16777216]⟩
abbrev S_ : Shape := ⟨0, ![]⟩
abbrev S1 : Shape := ⟨1, ![1]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S1x16777216, .f32⟩
  | .hbm, ⟨3, _⟩ => ⟨S_, .f32⟩
  | .hbm, ⟨4, _⟩ => ⟨S1, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S1x1, .f32⟩
  | .hbm, ⟨9, _⟩ => ⟨S1x16777216, .f32⟩
  | .hbm, ⟨10, _⟩ => ⟨S1x16777216, .f32⟩
  | .hbm, ⟨11, _⟩ => ⟨S1x16777216, .f32⟩
  | .hbm, ⟨12, _⟩ => ⟨S1x16777216, .f32⟩
  | .hbm, ⟨13, _⟩ => ⟨S_, .f32⟩
  | .hbm, ⟨14, _⟩ => ⟨S1, .f32⟩
  | .hbm, ⟨15, _⟩ => ⟨S1x1, .f32⟩
  | .hbm, ⟨16, _⟩ => ⟨S_, .f32⟩
  | .hbm, ⟨17, _⟩ => ⟨S1x1, .f32⟩
  | .hbm, ⟨18, _⟩ => ⟨S1x1, .f32⟩
  | .hbm, ⟨19, _⟩ => ⟨S1x16777216, .f32⟩
  | .hbm, ⟨20, _⟩ => ⟨S1x16777216, .f32⟩
  | .hbm, ⟨21, _⟩ => ⟨S4096x4096, .f32⟩
  | .hbm, ⟨22, _⟩ => ⟨S8192x4096, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S4096x4096, .f32⟩
  | .hbm, ⟨31, _⟩ => ⟨S8192x4096, .f32⟩
  | .hbm, ⟨32, _⟩ => ⟨S8192x4096, .f32⟩
  | .hbm, ⟨33, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  shapeCasts_S4096x4096_S1x16777216 : S4096x4096.ShapeCasts S1x16777216
  reducesTo_S1x16777216_S1_d1 : S1x16777216.ReducesTo [1] S1
  h_S_ : 0 < S_.numel
  bcast_S1_S1x1_0 : S1.BroadcastsInDim S1x1 (![0] : Fin 1 → Fin S1x1.rank)
  bcast_S_S1x1 : S_.BroadcastsInDim S1x1 (![] : Fin 0 → Fin S1x1.rank)
  bcast_S1x1_S1x16777216_0_1 : S1x1.BroadcastsInDim S1x16777216 (![0, 1] : Fin 2 → Fin S1x16777216.rank)
  shapeCasts_S1x16777216_S4096x4096 : S1x16777216.ShapeCasts S4096x4096
  reducesTo_S8192x4096_S_d0_1 : S8192x4096.ReducesTo [0, 1] S_
  bcast_S_S8192x4096 : S_.BroadcastsInDim S8192x4096 (![] : Fin 0 → Fin S8192x4096.rank)
  transposes_S4096x4096_S4096x4096_1_0 : S4096x4096.Transposes [1, 0] S4096x4096
  bcast_S1x1_S8192x4096_0_1 : S1x1.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.ScaleCancel.lean ====
/-
  The algebra that joins the two programs, on the extended reals.

  The reference scales every ternary weight by one number β before the contraction and divides the contracted
  sum by the same β afterwards; the kernel contracts against the unscaled signs. The two agree exactly when β is
  a positive real: a nonnegative real factor can be pulled out of a finite sum of extended reals whatever the
  terms are (infinite terms included: the factor never meets `0 · ∞` or `∞ - ∞` in a new way), and a positive
  real cancels against its own reciprocal. β is the mean magnitude of a sign pattern, so it is a nonnegative
  real by construction, and it is positive as soon as it is not zero.
-/
import Idealize.ShloMosaic.PureOps.Ideal

noncomputable section

namespace Cert.ScaleCancel

open Idealize.ShloMosaic

/-- A nonnegative real factor comes out of a finite sum of extended reals, with no condition on the terms. -/
theorem sum_mul_coe {ι : Type} (s : Finset ι) (f : ι → EReal) {r : ℝ} (hr : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (EReal.coe_nonneg.2 hr) (EReal.coe_ne_top r)]

/-- Dividing a product by its positive real factor gives the other factor back, at the infinities too. -/
theorem div_mul_coe_cancel (A : EReal) {r : ℝ} (hr : 0 < r) : Ideal.div (A * (r : EReal)) (r : EReal) = A := by
  rw [Ideal.div_coe hr.ne', mul_assoc, ← EReal.coe_mul, mul_one_div_cancel hr.ne', EReal.coe_one, mul_one]

/-- The join: a contraction against weights all scaled by one positive real β, divided by β, is the contraction
    against the unscaled weights. -/
theorem contraction_scaled {ι : Type} [Fintype ι] (q s : ι → EReal) {r : ℝ} (hr : 0 < r) :
    Ideal.div (∑ k, q k * (s k * (r : EReal))) (r : EReal) = ∑ k, q k * s k := by
  simp only [← mul_assoc]
  rw [sum_mul_coe _ _ hr.le, div_mul_coe_cancel _ hr]

/-- A sign is a real (`-1`, `0` or `1`), at the infinities too. -/
theorem sign_real (y : EReal) : ∃ σ : ℝ, Ideal.sign y = (σ : EReal) := by
  induction y using EReal.rec with
  | bot => exact ⟨-1, by rw [Ideal.sign_bot, EReal.coe_neg, EReal.coe_one]⟩
  | top => exact ⟨1, by rw [Ideal.sign_top, EReal.coe_one]⟩
  | coe x => exact ⟨_, Ideal.sign_coe x⟩

/-- The magnitude `max x (-x)` of a real, read in the extended reals, is its absolute value. -/
theorem abs_coe_real (σ : ℝ) : max (σ : EReal) (-(σ : EReal)) = ((|σ| : ℝ) : EReal) := by
  rw [← EReal.coe_neg]
  rcases le_total 0 σ with h | h
  · rw [max_eq_left (EReal.coe_le_coe_iff.2 (by linarith)), abs_of_nonneg h]
  · rw [max_eq_right (EReal.coe_le_coe_iff.2 (by linarith)), abs_of_nonpos h]

/-- The magnitude of a sign is a nonnegative real. -/
theorem abs_sign_real (y : EReal) : ∃ r : ℝ, 0 ≤ r ∧ max (Ideal.sign y) (-(Ideal.sign y)) = (r : EReal) := by
  obtain ⟨σ, e⟩ := sign_real y
  exact ⟨|σ|, abs_nonneg σ, by rw [e, abs_coe_real]⟩

/-- A finite sum of nonnegative reals, read in the extended reals, is a nonnegative real. -/
theorem sum_coe_real {ι : Type} (s : Finset ι) (f : ι → EReal) (hf : ∀ i, ∃ r : ℝ, 0 ≤ r ∧ f i = (r : EReal)) :
    ∃ R : ℝ, 0 ≤ R ∧ ∑ i ∈ s, f i = (R : EReal) := by
  classical
  induction s using Finset.induction_on with
  | empty => exact ⟨0, le_rfl, by simp⟩
  | insert a s ha ih =>
    obtain ⟨R, hR, e⟩ := ih
    obtain ⟨r, hr, e'⟩ := hf a
    exact ⟨r + R, add_nonneg hr hR, by rw [Finset.sum_insert ha, e, e', EReal.coe_add]⟩

/-- The reference's β — a sum of sign magnitudes (from the zero accumulator) over a positive real count — is a
    nonnegative real; so it is a POSITIVE real as soon as it is not zero. -/
theorem beta_pos_real {ι : Type} [Fintype ι] (y : ι → EReal) {n : ℝ} (hn : 0 < n)
    (hne : Ideal.div (0 + ∑ i, max (Ideal.sign (y i)) (-(Ideal.sign (y i)))) (n : EReal) ≠ 0) :
    ∃ R : ℝ, 0 < R ∧ Ideal.div (0 + ∑ i, max (Ideal.sign (y i)) (-(Ideal.sign (y i)))) (n : EReal) = (R : EReal) := by
  obtain ⟨S, hS, e⟩ := sum_coe_real Finset.univ _ (fun i => abs_sign_real (y i))
  have hv : Ideal.div (0 + ∑ i, max (Ideal.sign (y i)) (-(Ideal.sign (y i)))) (n : EReal) = ((S * (1 / n) : ℝ) : EReal) := by
    rw [e, zero_add, Ideal.div_coe hn.ne', ← EReal.coe_mul]
  refine ⟨S * (1 / n), ?_, hv⟩
  have h0 : 0 ≤ S * (1 / n) := mul_nonneg hS (by positivity)
  rcases h0.eq_or_lt with h | h
  · exact absurd (by rw [hv, ← h, EReal.coe_zero]) hne
  · exact h

/-- The count the reference divides by, `2^24` (the number of weights), as the real its pattern denotes. -/
theorem ofBits_count : Ideal.ofBits .f32 0x4B800000#32 = ((16777216 : ℝ) : EReal) := by
  simp [Ideal.ofBits, Ideal.ieee, -EReal.coe_mul]; norm_num

end Cert.ScaleCancel

end
-- ==== Proof.RefValue.lean ====
/-
  The reference, read at an index, in terms of three of its own stages:
    Q  = the quantised activations   round_half_even((127 / max|x|) · x)          [tokens, in]
    s  = the ternary weight pattern  sign(w - mean w), as the flat row [1, out·in]
    β  = the pattern's mean magnitude  (Σ |s|) / 2^24                              one number
  Its result at [t, o] is  (Σ_k Q[t,k] · (s[o·4096 + k] · β)) / β.  Where β is a positive real this is the plain
  contraction Σ_k Q[t,k] · s[o·4096 + k] (the specification `G` below): β comes out of the sum and cancels.
  β is a nonnegative real whatever the weights are, so "β is not zero" is all that has to be known of it.
-/
import proofs.«160162_j12910671692515_1_alg».proof.Proof.Gen.ReferenceIdeal.Read
import proofs.«160162_j12910671692515_1_alg».proof.Proof.ScaleCancel

noncomputable section

namespace Cert.BitLinear

open Idealize.ShloMosaic Cert.ReferenceIdeal Cert.ReferenceIdeal.Gen Cert.ReferenceIdeal.Read

/-- The specification both programs meet: at [t, o], the contraction over `k` of the quantised activation [t, k]
    with the weight's sign [o, k] (read from the flat sign row at `o·4096 + k`). -/
def G (x0 : (⟨S8192x4096, .f32⟩ : BufTy).Contents (Elt Ideal)) (x1 : (⟨S4096x4096, .f32⟩ : BufTy).Contents (Elt Ideal)) :
    S8192x4096.Idx → EReal :=
  fun i => ∑ k : Fin 4096, val_main_v21 (F := Ideal) x0 (lidx_main_v23 i k)
    * val_main_v7 (F := Ideal) x1 (idx_main_v15 (idx_main_v22 (ridx_main_v23 i k)))

/-- A [1, 1] array has one index. -/
instance : Subsingleton S1x1.Idx :=
  ⟨fun a b => funext fun d => Fin.ext (by
    match d with
    | ⟨0, _⟩ => have h1 : (a 0).val < 1 := (a 0).isLt; have h2 : (b 0).val < 1 := (b 0).isLt; show (a 0).val = (b 0).val; omega
    | ⟨1, _⟩ => have h1 : (a 1).val < 1 := (a 1).isLt; have h2 : (b 1).val < 1 := (b 1).isLt; show (a 1).val = (b 1).val; omega)⟩

/-- β, spelt out: the sum (from zero) over the flat row of the magnitudes of the signs, over the count `2^24`. -/
theorem beta_apply (x1 : (⟨S4096x4096, .f32⟩ : BufTy).Contents (Elt Ideal)) (p : S1x1.Idx) :
    val_main_v12 (F := Ideal) x1 p
      = Ideal.div (0 + ∑ k : Fin 16777216,
          max (Ideal.sign (val_main_v6 (F := Ideal) x1 (idx_main_v9 (idx_main_v10 p) k)))
            (-(Ideal.sign (val_main_v6 (F := Ideal) x1 (idx_main_v9 (idx_main_v10 p) k)))))
          ((16777216 : ℝ) : EReal) := by
  rw [val_main_v12_apply, val_main_v10_apply, val_main_v9_apply, val_main_v11_apply, val_main_cst_2_apply,
    val_main_cst_1_apply]
  simp only [val_main_v8_apply, val_main_v7_apply, Ideal.hostDivf_def, Ideal.hostAbsf_def, Ideal.hostUnary_sign_def,
    Ideal.ofBits_def, Ideal.ofBits_zero_f32, ScaleCancel.ofBits_count]
  rfl

/-- β is a positive real as soon as it is not zero (and it is one number: the [1, 1] array's only entry). -/
theorem beta_pos (x1 : (⟨S4096x4096, .f32⟩ : BufTy).Contents (Elt Ideal)) (p0 : S1x1.Idx)
    (hne : val_main_v12 (F := Ideal) x1 p0 ≠ 0) :
    ∃ R : ℝ, 0 < R ∧ ∀ p : S1x1.Idx, val_main_v12 (F := Ideal) x1 p = (R : EReal) := by
  obtain ⟨R, hR, e⟩ := ScaleCancel.beta_pos_real
    (fun k : Fin 16777216 => val_main_v6 (F := Ideal) x1 (idx_main_v9 (idx_main_v10 p0) k))
    (n := 16777216) (by norm_num) (by rw [← beta_apply x1 p0]; exact hne)
  exact ⟨R, hR, fun p => (congrArg (val_main_v12 (F := Ideal) x1) (Subsingleton.elim p p0)).trans
    ((beta_apply x1 p0).trans e)⟩

/-- The reference's result is `G` of its arguments, where β is a positive real. -/
theorem ref_eq (x0 : (⟨S8192x4096, .f32⟩ : BufTy).Contents (Elt Ideal)) (x1 : (⟨S4096x4096, .f32⟩ : BufTy).Contents (Elt Ideal))
    {R : ℝ} (hR : 0 < R) (hβ : ∀ p : S1x1.Idx, val_main_v12 (F := Ideal) x1 p = (R : EReal)) :
    val_main_v25 (F := Ideal) x0 x1 = G x0 x1 := by
  funext i
  rw [val_main_v25_apply, val_main_v23_apply, val_main_v24_apply]
  simp only [val_main_v22_apply, val_main_v15_apply, val_main_v14_apply, val_main_v13_apply, hβ,
    Ideal.hostDivf_def, Ideal.mulf_def]
  exact ScaleCancel.contraction_scaled
    (fun k : Fin 4096 => val_main_v21 (F := Ideal) x0 (lidx_main_v23 i k))
    (fun k : Fin 4096 => val_main_v7 (F := Ideal) x1 (idx_main_v15 (idx_main_v22 (ridx_main_v23 i k)))) hR

end Cert.BitLinear

end
-- ==== Proof.PreDomain.lean ====
/-
  What the precondition says about the weights: its last conjunct is "β ≠ 0", where β is the reference's own divisor
  (the mean magnitude of the weight's sign pattern), computed by the same operations as in the reference. Read at the
  extended reals, the conjunct being true means exactly that the reference's stage β is not the extended real 0.
  (The two finiteness conjuncts are not needed by this certificate: no step of the proof divides or cancels an input.)
-/
import proofs.«160162_j12910671692515_1_alg».proof.Proof.Gen.Pre_finite_inputs
import proofs.«160162_j12910671692515_1_alg».proof.Proof.Gen.ReferenceIdeal.Read
import Idealize.ShloMosaic.Lib.ReduceAll
import Idealize.ShloMosaic.Lib.ValueIdx
import Idealize.ShloMosaic.Lib.Pipeline.Value

noncomputable section

namespace Cert.BitLinear

open Idealize.ShloMosaic

/-- The empty shape has one index. -/
instance : Subsingleton Cert.Pre_finite_inputs.S_.Idx := ⟨fun a b => funext fun d => d.elim0⟩

/-- An "unordered or not equal" comparison of extended reals answering 1 says the two differ. -/
theorem ne_of_cmp_une {x y : EReal} (h : Ideal.cmp .une x y = 1#1) : x ≠ y := by
  intro e
  subst e
  simp [Ideal.cmp] at h

variable [Cert.Pre_finite_inputs.Facts]

/-- Under the precondition, the reference's divisor β is not zero. -/
theorem beta_ne_zero (x0 : FVec Ideal Cert.Pre_finite_inputs.S8192x4096 .f32) (x1 : FVec Ideal Cert.Pre_finite_inputs.S4096x4096 .f32)
    (h : Cert.Pre_finite_inputs.fn (F := Ideal) x0 x1 = fun _ => 1#1) (p0 : Cert.Pre_finite_inputs.S1x1.Idx) :
    Cert.ReferenceIdeal.Read.val_main_v12 (F := Ideal) x1 p0 ≠ 0 := by
  have h0 := congrFun h ValueIdx.ix0
  dsimp only [Cert.Pre_finite_inputs.fn, Cert.Pre_finite_inputs.fn_part1] at h0
  have h1 := (IntOp.andi_eq_one.1 h0).2
  have h2 := Host.reduce_andi_all _ _ _ _ _ h1 p0
  have h3 := ne_of_cmp_une h2
  intro e
  apply h3
  refine Eq.trans (b := (0 : EReal)) ?_ ?_
  · exact e
  · symm
    refine (broadcastInDim_apply _ Cert.Pre_finite_inputs.Facts.bcast_S_S1x1 _ p0 ValueIdx.ix0 (fun a => a.elim0)).trans ?_
    exact Ideal.ofBits_zero_f32

end Cert.BitLinear

end
-- ==== Proof.KernelValue.lean ====
/-
  The kernel's result array is the specification `G` of its arguments.

  The grid has 128 points; point `t` works on token rows 64t … 64t+63. Its three input blocks are: rows 64t… of the
  activations x; the WHOLE sign matrix (the host computed it before the launch: sign(w - mean w), reshaped to
  [out, in]; the change of float format is the identity on extended reals); and the one-entry scale 127 / max|x|.
  The body multiplies the activation block by the scale, rounds half to even, and contracts row r of that with row o
  of the sign matrix over k (a matrix product into a zero accumulator: the plain sum). So entry [r, o] of what point t
  writes back is  Σ_k round(x[64t + r, k] · scale) · s[o, k], which is `G` at [64t + r, o]: the scale and the sign row
  are the reference's own stages, the product commutes, and position [o, k] of the reshaped sign matrix is position
  o·4096 + k of the flat row. The 128 blocks tile the result array, so the array ends as `G`.
-/
import proofs.«160162_j12910671692515_1_alg».proof.Proof.Gen.KernelIdeal.Value
import proofs.«160162_j12910671692515_1_alg».proof.Proof.RefValue
import Idealize.ShloMosaic.Lib.Pipeline.Value
import Idealize.ShloMosaic.Lib.ValueIdx
import Idealize.ShloMosaic.PureOps.Ideal.Laws
import Idealize.ShloMosaic.Lib.StableHlo.Run
import Idealize.ShloMosaic.Lib.Tactic

noncomputable section

namespace Cert.BitLinear.Kernel

open Idealize.ShloMosaic Idealize.ShloMosaic.TcCoe Idealize.SL.Sem
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

/-! ## The two arrays the host wrote before the launch -/

/-- The weight window's array: the reference's sign row, reshaped to [out, in] (the narrowing of the float format is
    the identity here). -/
theorem V_sign (c : Dev nD) : (V m c main_v9 : S4096x4096.Idx → EReal)
    = (truncf (F := Ideal) .bf16 (shapeCast S4096x4096 (Cert.ReferenceIdeal.Read.val_main_v7 (F := Ideal) (m ((c : Thread nD τ).loc main_arg1))) shapeCasts_S1x16777216_S4096x4096) bitsLt_bf16_f32 : S4096x4096.Idx → EReal) := by
  dsimp only [Gen.V, Gen.hostOps0]; after_results; rfl

/-- The scale window's array: the reference's scale 127 / max|x|, reshaped from a scalar to [1, 1]. -/
theorem V_scale (c : Dev nD) : (V m c main_v13 : S1x1.Idx → EReal)
    = (shapeCast S1x1 (Cert.ReferenceIdeal.Read.val_main_v18 (F := Ideal) (m ((c : Thread nD τ).loc main_arg0))) shapeCasts_S_S1x1 : S1x1.Idx → EReal) := by
  dsimp only [Gen.V, Gen.hostOps0]; after_results; rfl

/-! ## The body's arithmetic at an index -/

/-- Row `j 0` of the activation block, column `k`. -/
abbrev rowIx (j : S64x4096.Idx) (k : Fin 4096) : S64x4096.Idx := fun a => match a with
  | ⟨0, _⟩ => ⟨(j 0).val, (j 0).isLt⟩
  | ⟨1, _⟩ => ⟨k.val, k.isLt⟩
/-- Row `j 1` of the sign matrix, column `k`. -/
abbrev colIx (j : S64x4096.Idx) (k : Fin 4096) : S4096x4096.Idx := fun a => match a with
  | ⟨0, _⟩ => ⟨(j 1).val, (j 1).isLt⟩
  | ⟨1, _⟩ => ⟨k.val, k.isLt⟩

theorem lhs0 (i : S64x4096.Idx) (q : dot_S64x4096_S4096x4096_S64x4096_1_1_0_0_n_n.contr.Idx) : (dot_S64x4096_S4096x4096_S64x4096_1_1_0_0_n_n.lhsIdx i q 0).val = (i 0).val := by
  unfold DotDims.lhsIdx
  rw [dif_neg (show ¬(0 : Fin S64x4096.rank) ∈ dot_S64x4096_S4096x4096_S64x4096_1_1_0_0_n_n.lhsBatch by decide), dif_pos (show (0 : Fin S64x4096.rank) ∈ dot_S64x4096_S4096x4096_S64x4096_1_1_0_0_n_n.lhsNonContracting by decide)]
  rfl
theorem lhs1 (i : S64x4096.Idx) (q : dot_S64x4096_S4096x4096_S64x4096_1_1_0_0_n_n.contr.Idx) : (dot_S64x4096_S4096x4096_S64x4096_1_1_0_0_n_n.lhsIdx i q 1).val = (q ⟨0, by decide⟩).val :=
  dot_S64x4096_S4096x4096_S64x4096_1_1_0_0_n_n.lhsIdx_val_of_single rfl i q
theorem rhs1 (i : S64x4096.Idx) (q : dot_S64x4096_S4096x4096_S64x4096_1_1_0_0_n_n.contr.Idx) : (dot_S64x4096_S4096x4096_S64x4096_1_1_0_0_n_n.rhsIdx i q 1).val = (q ⟨0, by decide⟩).val :=
  dot_S64x4096_S4096x4096_S64x4096_1_1_0_0_n_n.rhsIdx_val_of_single rfl i q
theorem rhs0 (i : S64x4096.Idx) (q : dot_S64x4096_S4096x4096_S64x4096_1_1_0_0_n_n.contr.Idx) : (dot_S64x4096_S4096x4096_S64x4096_1_1_0_0_n_n.rhsIdx i q 0).val = (i 1).val := by
  unfold DotDims.rhsIdx
  rw [dif_neg (show ¬(0 : Fin S4096x4096.rank) ∈ dot_S64x4096_S4096x4096_S64x4096_1_1_0_0_n_n.rhsBatch by decide), dif_pos (show (0 : Fin S4096x4096.rank) ∈ dot_S64x4096_S4096x4096_S64x4096_1_1_0_0_n_n.rhsNonContracting by decide)]
  rfl

/-- What the body stores, at [r, o]: the sum over `k` of the rounded scaled activation [r, k] times the sign [o, k]
    (both operands contract their second axis; the accumulator is zero). -/
theorem pay_apply (v0 : Vec Ideal S1x1 .f32) (v2 : Vec Ideal S64x4096 .f32) (v7 : Vec Ideal S4096x4096 .bf16) (j : S64x4096.Idx) :
    k0_pay1 v0 v2 v7 j = ∑ k : Fin 4096,
      FloatOps.roundeven (F := Ideal) (φ := .f32) (v2 (rowIx j k) * extractAt ![0, 0] v0 inpos_S1x1_p0_0) * v7 (colIx j k) := by
  unfold k0_pay1
  simp only [matmul]
  rw [Ideal.matmul_constant_zero_apply, ← Equiv.sum_comp (ValueIdx.contrEquiv1 dot_S64x4096_S4096x4096_S64x4096_1_1_0_0_n_n 4096 rfl rfl).symm]
  refine Finset.sum_congr rfl fun k _ => ?_
  have hk := ValueIdx.contrEquiv1_symm_val dot_S64x4096_S4096x4096_S64x4096_1_1_0_0_n_n 4096 rfl rfl k
  have el : dot_S64x4096_S4096x4096_S64x4096_1_1_0_0_n_n.lhsIdx j ((ValueIdx.contrEquiv1 dot_S64x4096_S4096x4096_S64x4096_1_1_0_0_n_n 4096 rfl rfl).symm k) = rowIx j k := funext fun a => Fin.ext (by
    match a with
    | ⟨0, _⟩ => exact lhs0 _ _
    | ⟨1, _⟩ => exact (lhs1 _ _).trans hk)
  have er : dot_S64x4096_S4096x4096_S64x4096_1_1_0_0_n_n.rhsIdx j ((ValueIdx.contrEquiv1 dot_S64x4096_S4096x4096_S64x4096_1_1_0_0_n_n 4096 rfl rfl).symm k) = colIx j k := funext fun a => Fin.ext (by
    match a with
    | ⟨0, _⟩ => exact rhs0 _ _
    | ⟨1, _⟩ => exact (rhs1 _ _).trans hk)
  rw [el, er, shapeCast_self]
  rfl

/-! ## From blocks to the array -/

theorem hz : (![0, 0] : Fin 2 → Nat) = fun _ => 0 := funext fun a => by fin_cases a <;> rfl

/-- The printed index maps, decided over the 128 points: the activation block moves with the output block along the
    token axis (block `t` at point `t`); every other block index is 0. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

/-- The empty shape has one index. -/
instance : Subsingleton S_.Idx := ⟨fun a b => funext fun d => d.elim0⟩

/-- The activation factor, over any blocks: if the activation block's entry [r, k] is the argument's entry at the
    reference's operand index, and the scale block's one entry is the reference's scale, then the rounded product is
    the reference's quantised activation there (the product commutes; both roundings are the one function). -/
theorem quant_eq (x0 : (⟨Cert.ReferenceIdeal.S8192x4096, .f32⟩ : BufTy).Contents (Elt Ideal))
    (b0 : Vec Ideal S64x4096 .f32) (b2 : Vec Ideal S1x1 .f32)
    (y : S64x4096.Idx) (k : Fin 4096) (i : Cert.ReferenceIdeal.S8192x4096.Idx)
    (h0 : b0 (rowIx y k) = x0 (Cert.ReferenceIdeal.Read.lidx_main_v23 i k))
    (h2 : extractAt ![0, 0] b2 inpos_S1x1_p0_0 = Cert.ReferenceIdeal.Read.val_main_v18 (F := Ideal) x0 ValueIdx.ix0) :
    FloatOps.roundeven (F := Ideal) (φ := .f32) (b0 (rowIx y k) * extractAt ![0, 0] b2 inpos_S1x1_p0_0)
      = Cert.ReferenceIdeal.Read.val_main_v21 (F := Ideal) x0 (Cert.ReferenceIdeal.Read.lidx_main_v23 i k) := by
  rw [h0, h2, Cert.ReferenceIdeal.Read.val_main_v21_apply, Cert.ReferenceIdeal.Read.val_main_v20_apply,
    Cert.ReferenceIdeal.Read.val_main_v19_apply, mul_comm]
  have e : Cert.ReferenceIdeal.Read.idx_main_v19 (Cert.ReferenceIdeal.Read.lidx_main_v23 i k) = ValueIdx.ix0 := rfl
  rw [e]
  generalize Cert.ReferenceIdeal.Read.val_main_v18 (F := Ideal) x0 ValueIdx.ix0 = s
  generalize x0 (Cert.ReferenceIdeal.Read.lidx_main_v23 i k) = a
  rfl

/-- Entry [r, k] of point `t`'s activation block is the argument's entry [64t + r, k]. -/
theorem xblk_eq (c : Dev nD) (t : Fin cfg0.N) (y : S64x4096.Idx) (k : Fin 4096) :
    iblk m c 0 t (rowIx y k)
      = m ((c : Thread nD τ).loc main_arg0) (Cert.ReferenceIdeal.Read.lidx_main_v23 (((cfg0.win 3).blk t).view.emb y) k) := by
  obtain ⟨e00, e01, e10, e11, e20, e21, e31, e30⟩ := idx_facts t
  have hx : ((cfg0.win 0).blk t).view.emb (rowIx y k)
      = Cert.ReferenceIdeal.Read.lidx_main_v23 (((cfg0.win 3).blk t).view.emb y) k := by
    funext a; apply Fin.ext
    match a with
    | ⟨0, _⟩ => show win0_0.index t (0 : Fin 2) * 64 + 1 * (y 0).val = win0_3.index t (0 : Fin 2) * 64 + 1 * (y 0).val; omega
    | ⟨1, _⟩ => show win0_0.index t (1 : Fin 2) * 4096 + 1 * k.val = k.val; omega
  show V m c main_arg0 (((cfg0.win 0).blk t).view.emb (rowIx y k)) = m ((c : Thread nD τ).loc main_arg0) _
  rw [V_main_arg0, hx]

/-- The scale block as a function: the block of the scale the host computed, a scalar reshaped to [1, 1]. -/
theorem iblk2_eq (c : Dev nD) (t : Fin cfg0.N) :
    iblk m c 2 t = ((cfg0.win 2).blk t).view.read (Elt Ideal)
      (shapeCast S1x1 (Cert.ReferenceIdeal.Read.val_main_v18 (F := Ideal) (m ((c : Thread nD τ).loc main_arg0))) shapeCasts_S_S1x1 : S1x1.Idx → EReal) := by
  unfold iblk
  exact congrArg (((cfg0.win 2).blk t).view.read (Elt Ideal)) (V_scale m c)

/-- A scalar reshaped to [1, 1], read through the scale window's block and extracted at [0, 0], is the scalar: stated
    for an arbitrary scalar array. -/
theorem extract_reshaped (t : Fin cfg0.N) (X : S_.Idx → EReal) :
    extractAt ![0, 0] (((cfg0.win 2).blk t).view.read (Elt Ideal) (shapeCast S1x1 X shapeCasts_S_S1x1 : S1x1.Idx → EReal)) inpos_S1x1_p0_0
      = X ValueIdx.ix0 := by
  unfold extractAt
  rw [View.read_apply]
  unfold shapeCast
  exact congrArg X (Subsingleton.elim _ _)

/-- So, for an arbitrary scalar array: if the scale block is the block of its reshape, the entry the body extracts is
    the scalar. -/
theorem scale_eq_gen (c : Dev nD) (t : Fin cfg0.N) (X : S_.Idx → EReal)
    (h : iblk m c 2 t = ((cfg0.win 2).blk t).view.read (Elt Ideal) (shapeCast S1x1 X shapeCasts_S_S1x1 : S1x1.Idx → EReal)) :
    extractAt ![0, 0] (iblk m c 2 t) inpos_S1x1_p0_0 = X ValueIdx.ix0 := by
  rw [h]
  exact extract_reshaped t X

/-- The one entry of the scale block is the reference's scale. -/
theorem scale_eq (c : Dev nD) (t : Fin cfg0.N) :
    extractAt ![0, 0] (iblk m c 2 t) inpos_S1x1_p0_0
      = Cert.ReferenceIdeal.Read.val_main_v18 (F := Ideal) (m ((c : Thread nD τ).loc main_arg0)) ValueIdx.ix0 :=
  scale_eq_gen m c t (Cert.ReferenceIdeal.Read.val_main_v18 (F := Ideal) (m ((c : Thread nD τ).loc main_arg0))) (iblk2_eq m c t)

/-- The weight factor: entry [o, k] of the (whole) sign block is the reference's flat sign row at `o·4096 + k`. -/
theorem sign_eq (c : Dev nD) (t : Fin cfg0.N) (y : S64x4096.Idx) (k : Fin 4096) :
    (iblk m c 1 t : S4096x4096.Idx → EReal) (colIx y k)
      = Cert.ReferenceIdeal.Read.val_main_v7 (F := Ideal) (m ((c : Thread nD τ).loc main_arg1))
          (Cert.ReferenceIdeal.Read.idx_main_v15 (Cert.ReferenceIdeal.Read.idx_main_v22
            (Cert.ReferenceIdeal.Read.ridx_main_v23 (((cfg0.win 3).blk t).view.emb y) k))) := by
  obtain ⟨e00, e01, e10, e11, e20, e21, e31, e30⟩ := idx_facts t
  show (V m c main_v9 : S4096x4096.Idx → EReal) (((cfg0.win 1).blk t).view.emb (colIx y k)) = _
  rw [V_sign, ValueIdx.truncf_apply]
  refine shapeCast_apply _ shapeCasts_S1x16777216_S4096x4096 _ _ ?_
  rewrite [Shape.rowMajor_val_two, Shape.rowMajor_val_two]
  have h1 : (y 1).val < 4096 := (y 1).isLt
  have hk : k.val < 4096 := k.isLt
  show 0 * 16777216 + ((win0_3.index t (1 : Fin 2) * 4096 + 1 * (y 1).val) * 4096 + k.val) % 16777216
    = (win0_1.index t (0 : Fin 2) * 4096 + 1 * (y 1).val) * 4096 + (win0_1.index t (1 : Fin 2) * 4096 + 1 * k.val)
  omega

/-- What point `t` writes back, for ANY whole-array function that the body's stored value meets entry by entry at the
    block's array indices: the block of that function. -/
theorem flushed_of (c : Dev nD) (t : Fin cfg0.N) (Gf : S8192x4096.Idx → EReal)
    (hG : ∀ y : S64x4096.Idx, k0_pay1 (iblk m c 2 t) (iblk m c 0 t) (iblk m c 1 t) y = Gf (((cfg0.win 3).blk t).view.emb y)) :
    (dats m 0 c).flushed 3 t = ((cfg0.win 3).blk t).view.read (Elt Ideal) Gf := by
  rw [Value.flushed3]
  unfold out0_3
  rw [View.canon_unit_zero hz]
  simp only [View.ld_unit_zero (S := S1x1) hz, View.ld_unit_zero (S := S64x4096) hz, View.ld_unit_zero (S := S4096x4096) hz]
  funext y
  exact hG y

/-- Entry [r, o] of what point `t` stores is `G` of the arguments at [64t + r, o]. -/
theorem point_eq (c : Dev nD) (t : Fin cfg0.N) (y : S64x4096.Idx) :
    k0_pay1 (iblk m c 2 t) (iblk m c 0 t) (iblk m c 1 t) y
      = Cert.BitLinear.G (m ((c : Thread nD τ).loc main_arg0)) (m ((c : Thread nD τ).loc main_arg1)) (((cfg0.win 3).blk t).view.emb y) := by
  refine (pay_apply (iblk m c 2 t) (iblk m c 0 t) (iblk m c 1 t) y).trans ?_
  unfold Cert.BitLinear.G
  refine Finset.sum_congr rfl fun k _ => ?_
  exact congrArg₂ (fun a b : EReal => a * b)
    (quant_eq (m ((c : Thread nD τ).loc main_arg0)) (iblk m c 0 t) (iblk m c 2 t) y k (((cfg0.win 3).blk t).view.emb y)
      (xblk_eq m c t y k) (scale_eq m c t))
    (sign_eq m c t y k)

/-- WHAT POINT `t` WRITES BACK is block `t` of `G` of the arguments. -/
theorem flushed_eq (c : Dev nD) (t : Fin cfg0.N) :
    (dats m 0 c).flushed 3 t = ((cfg0.win 3).blk t).view.read (Elt Ideal)
      (Cert.BitLinear.G (m ((c : Thread nD τ).loc main_arg0)) (m ((c : Thread nD τ).loc main_arg1))) :=
  flushed_of m c t _ (point_eq m c t)

/-- An index of the array is in point `t`'s block iff each coordinate is in the block's range on its axis. -/
theorem mem_blk (t : Fin cfg0.N) (i : S8192x4096.Idx) :
    i ∈ ((cfg0.win 3).blk t).view.set ↔ ∀ a : Fin 2, win0_3.index t a * S64x4096.size a ≤ (i a).val ∧ (i a).val < win0_3.index t a * S64x4096.size a + S64x4096.size a := by
  show i ∈ ((View.whole main_v14).slice (win0_3.rect t)).set ↔ _
  rw [View.set_slice_whole, Rect.mem_set_unit]
  exact Iff.rfl

/-- The 128 row blocks tile the array: row `r` is in the block of point `r / 64`. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  have ht : (i 0).val / 64 < cfg0.N := by rw [hN]; omega
  obtain ⟨e00, e01, e10, e11, e20, e21, e31, e30⟩ := idx_facts ⟨(i 0).val / 64, ht⟩
  refine ⟨⟨(i 0).val / 64, ht⟩, flush0_3 _, ?_⟩
  rw [mem_blk]
  intro a
  match a with
  | ⟨0, _⟩ =>
    show win0_3.index ⟨(i 0).val / 64, ht⟩ (0 : Fin 2) * 64 ≤ (i 0).val ∧ (i 0).val < win0_3.index ⟨(i 0).val / 64, ht⟩ (0 : Fin 2) * 64 + 64
    rw [e30]; show (i 0).val / 64 * 64 ≤ (i 0).val ∧ (i 0).val < (i 0).val / 64 * 64 + 64; omega
  | ⟨1, _⟩ =>
    show win0_3.index ⟨(i 0).val / 64, ht⟩ (1 : Fin 2) * 4096 ≤ (i 1).val ∧ (i 1).val < win0_3.index ⟨(i 0).val / 64, ht⟩ (1 : Fin 2) * 4096 + 4096
    rw [e31]; omega

/-- THE ARRAY after the run is `G` of the arguments. -/
theorem final (c : Dev nD) : (dats m 0 c).arrAt 3 cfg0.N
    = Cert.BitLinear.G (m ((c : Thread nD τ).loc main_arg0)) (m ((c : Thread nD τ).loc main_arg1)) :=
  (dats m 0 c).arrAt_eq_of_cover 3 (Cert.BitLinear.G (m ((c : Thread nD τ).loc main_arg0)) (m ((c : Thread nD τ).loc main_arg1)))
    (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v14) = Cert.BitLinear.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.BitLinear.Kernel

end
-- ==== Proof.lean ====
/-
  The certificate of a BitLinear layer: activations quantised to round(x · 127 / max|x|), contracted against the
  ternary pattern s = sign(w - mean w) of the weights.

  The reference scales the pattern by β = (Σ|s|) / 2^24 before the contraction and divides the result by β after it;
  the kernel leaves β out. On the extended reals the two agree exactly where β is a positive real: β then comes out of
  the sum and cancels (Proof/ScaleCancel.lean — no finiteness of the summands is needed for that). β is a nonnegative
  real for every weight array, and it is 0 exactly when every weight equals the mean; there the reference itself is
  0 / 0, and the precondition excludes that case by stating β ≠ 0 with the reference's own operations
  (Proof/PreDomain.lean reads that conjunct). The other corner, max|x| = 0, needs no condition: both programs compute the
  same scale 127 / max|x| and use it in the same way.

  Both results are the one function `G` of the arguments: the reference by reading its operations at an index
  (Proof/RefValue.lean), the kernel by what each of its 128 grid points writes back and the blocks' tiling of the
  result array (Proof/KernelValue.lean). The three frames are the generated runs; the idealization rewrote nothing,
  so `preserves` is trivial.
-/
import proofs.«160162_j12910671692515_1_alg».proof.Defs
import proofs.«160162_j12910671692515_1_alg».proof.Proof.Gen.Kernel
import proofs.«160162_j12910671692515_1_alg».proof.Proof.Gen.Kernel.Skeleton
import proofs.«160162_j12910671692515_1_alg».proof.Proof.Gen.Kernel.Launch
import proofs.«160162_j12910671692515_1_alg».proof.Proof.Gen.Kernel.Points
import proofs.«160162_j12910671692515_1_alg».proof.Proof.Gen.Kernel.Frame
import proofs.«160162_j12910671692515_1_alg».proof.Proof.Gen.KernelIdeal
import proofs.«160162_j12910671692515_1_alg».proof.Proof.Gen.KernelIdeal.Skeleton
import proofs.«160162_j12910671692515_1_alg».proof.Proof.Gen.KernelIdeal.Launch
import proofs.«160162_j12910671692515_1_alg».proof.Proof.Gen.KernelIdeal.Points
import proofs.«160162_j12910671692515_1_alg».proof.Proof.Gen.KernelIdeal.Frame
import proofs.«160162_j12910671692515_1_alg».proof.Proof.Gen.ReferenceIdeal
import proofs.«160162_j12910671692515_1_alg».proof.Proof.Gen.Pre_finite_inputs
import proofs.«160162_j12910671692515_1_alg».proof.Proof.Gen.KernelIdeal.Value
import proofs.«160162_j12910671692515_1_alg».proof.Proof.Gen.ReferenceIdeal.Run
import proofs.«160162_j12910671692515_1_alg».proof.Proof.Gen.ReferenceIdeal.Read
import proofs.«160162_j12910671692515_1_alg».proof.Proof.ScaleCancel
import proofs.«160162_j12910671692515_1_alg».proof.Proof.RefValue
import proofs.«160162_j12910671692515_1_alg».proof.Proof.PreDomain
import proofs.«160162_j12910671692515_1_alg».proof.Proof.KernelValue
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at `G` of the arguments: the kernel by its blocks, the reference by
    pulling its positive real β out of the contraction and cancelling it. -/
theorem algebraic : Cert.algebraic_KernelIdeal_ReferenceIdeal := by
  intro m ρ m' ρ' hpre hagree
  refine ⟨fun c => Cert.BitLinear.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.BitLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v25_eq]
  have hne := Cert.BitLinear.beta_ne_zero _ _ (hpre c) (ValueIdx.ix2 (0 : Fin 1) (0 : Fin 1))
  obtain ⟨R, hR, hβ⟩ := Cert.BitLinear.beta_pos _ (ValueIdx.ix2 (0 : Fin 1) (0 : Fin 1)) hne
  exact Cert.BitLinear.ref_eq _ _ hR hβ

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
